-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x128 : Shape := ⟨3, ![1, 768, 128]⟩
abbrev S128x128 : Shape := ⟨2, ![128, 128]⟩
abbrev S128 : Shape := ⟨1, ![128]⟩
abbrev S_ : Shape := ⟨0, ![]⟩

class Facts : Prop where
  bcast_S_S1x768x128 : S_.BroadcastsInDim S1x768x128 (![] : Fin 0 → Fin S1x768x128.rank)
  reducesTo_S1x768x128_S_d0_1_2 : S1x768x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x768x128 .f32) (main_arg1 : FVec F S128x128 .f32) (main_arg2 : FVec F S128 .f32) (main_arg3 : FVec F S128x128 .f32) (main_arg4 : FVec F S128 .f32) : IVec S_ 1 :=
  let main_v0 : FVec F S1x768x128 .f32 := Host.absf main_arg0
  let main_cst : FVec F S_ .f32 := constant S_ .f32 0x7F800000#32
  let main_v1 : FVec F S1x768x128 .f32 := broadcastInDim S1x768x128 ![] bcast_S_S1x768x128 main_cst
  let main_v2 : IVec S1x768x128 1 := cmpf .olt main_v0 main_v1
  let main_c : IVec S_ 1 := constantI S_ 1 1#1
  let main_v3 : IVec S_ 1 := (fun x v => Host.reduce IntOp.andi x v reducesTo_S1x768x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1x768x128 : Shape := ⟨3, ![1, 768, 128]⟩
abbrev S128x128 : Shape := ⟨2, ![128, 128]⟩
abbrev S128 : Shape := ⟨1, ![128]⟩
abbrev S768x128 : Shape := ⟨2, ![768, 128]⟩
abbrev S1x128 : Shape := ⟨2, ![1, 128]⟩
abbrev S768x768x128 : Shape := ⟨3, ![768, 768, 128]⟩
abbrev S128x128x128 : Shape := ⟨3, ![128, 128, 128]⟩
abbrev S128x1x128 : Shape := ⟨3, ![128, 1, 128]⟩
abbrev S1x128x128 : Shape := ⟨3, ![1, 128, 128]⟩
abbrev S16384x128 : Shape := ⟨2, ![16384, 128]⟩
abbrev S1x1x128 : Shape := ⟨3, ![1, 1, 128]⟩
abbrev S1x768x768x128 : Shape := ⟨4, ![1, 768, 768, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x768x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S768x128, .f32⟩
  | .hbm, ⟨6, _⟩ => ⟨S768x128, .f32⟩
  | .hbm, ⟨7, _⟩ => ⟨S1x128, .f32⟩
  | .hbm, ⟨8, _⟩ => ⟨S768x128, .f32⟩
  | .hbm, ⟨9, _⟩ => ⟨S768x128, .f32⟩
  | .hbm, ⟨10, _⟩ => ⟨S768x768x128, .f32⟩
  | .hbm, ⟨11, _⟩ => ⟨S1x768x768x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128, .f32⟩
  | .local _ .vmem, ⟨6, _⟩ => ⟨S128x128x128, .f32⟩
  | .local _ .vmem, ⟨7, _⟩ => ⟨S128x128x128, .f32⟩
  | _, _ => ⟨S1x768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x768x128_S768x128 : S1x768x128.ShapeCasts S768x128
  bcast_S128_S1x128_1 : S128.BroadcastsInDim S1x128 (![1] : Fin 1 → Fin S1x128.rank)
  bcast_S1x128_S768x128_0_1 : S1x128.BroadcastsInDim S768x128 (![0, 1] : Fin 2 → Fin S768x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  shapeCasts_S16384x128_S128x128x128 : S16384x128.ShapeCasts S128x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S768x768x128_S1x768x768x128 : S768x768x128.ShapeCasts S1x768x768x128
  dot_S768x128_S128x128_S768x128_1_1_0_0_n_n_wf : DotDims.WF S768x128 S128x128 S768x128 [1] [1] [0] [0] [] []
  dot_S16384x128_S128x128_S16384x128_1_1_0_0_n_n_wf : DotDims.WF S16384x128 S128x128 S16384x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S768x128.size a
  hwx0_0 : ∀ i : grid0.Coords, EltTy.bits .f32 = 32 ∨ (Rect.block (s := S768x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S768x128.size a
  hwx0_1 : ∀ i : grid0.Coords, EltTy.bits .f32 = 32 ∨ (Rect.block (s := S768x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128x128.size a ≤ S768x768x128.size a
  hwx0_4 : ∀ i : grid0.Coords, EltTy.bits .f32 = 32 ∨ (Rect.block (s := S768x768x128) S128x128x128.size (cc0_transform_4 i) (hinb0_4 i)).WholeWords (EltTy.packing .f32)

variable [Facts₀]

def dot_S768x128_S128x128_S768x128_1_1_0_0_n_n : DotDims S768x128 S128x128 S768x128 where
  lhsContracting := [1]
  rhsContracting := [1]
  lhsNonContracting := [0]
  rhsNonContracting := [0]
  lhsBatch := []
  rhsBatch := []
  wf := dot_S768x128_S128x128_S768x128_1_1_0_0_n_n_wf
def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf

abbrev win0_0 : Pipeline.Window sig grid0 :=
  Pipeline.Window.ofSpec (Memref.whole main_v4) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x768x128 : Shape := ⟨3, ![1, 768, 128]⟩
abbrev S128x128 : Shape := ⟨2, ![128, 128]⟩
abbrev S128 : Shape := ⟨1, ![128]⟩
abbrev S1x1x128 : Shape := ⟨3, ![1, 1, 128]⟩
abbrev S1x768x1x128 : Shape := ⟨4, ![1, 768, 1, 128]⟩
abbrev S1x1x768x128 : Shape := ⟨4, ![1, 1, 768, 128]⟩
abbrev S1x768x768x128 : Shape := ⟨4, ![1, 768, 768, 128]⟩
abbrev S1x1x1x128 : Shape := ⟨4, ![1, 1, 1, 128]⟩

abbrev nBuf : Space → Nat
  | .hbm => 18
  | .vmem => 0
  | .smem => 0
  | _ => 0

abbrev bufTy : (tb : Table) → Fin (tcTables nBuf tb) → BufTy
  | .hbm, ⟨0, _⟩ => ⟨S1x768x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1x768x128, .f32⟩
  | .hbm, ⟨6, _⟩ => ⟨S1x1x128, .f32⟩
  | .hbm, ⟨7, _⟩ => ⟨S1x768x128, .f32⟩
  | .hbm, ⟨8, _⟩ => ⟨S1x768x128, .f32⟩
  | .hbm, ⟨9, _⟩ => ⟨S1x768x1x128, .f32⟩
  | .hbm, ⟨10, _⟩ => ⟨S1x1x768x128, .f32⟩
  | .hbm, ⟨11, _⟩ => ⟨S1x768x768x128, .f32⟩
  | .hbm, ⟨12, _⟩ => ⟨S1x768x768x128, .f32⟩
  | .hbm, ⟨13, _⟩ => ⟨S1x768x768x128, .f32⟩
  | .hbm, ⟨14, _⟩ => ⟨S1x768x768x128, .f32⟩
  | .hbm, ⟨15, _⟩ => ⟨S1x1x1x128, .f32⟩
  | .hbm, ⟨16, _⟩ => ⟨S1x768x768x128, .f32⟩
  | .hbm, ⟨17, _⟩ => ⟨S1x768x768x128, .f32⟩
  | _, _ => ⟨S1x768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x768x128_0_1_2 : S1x1x128.BroadcastsInDim S1x768x128 (![0, 1, 2] : Fin 3 → Fin S1x768x128.rank)
  bcast_S1x768x128_S1x768x1x128_0_1_3 : S1x768x128.BroadcastsInDim S1x768x1x128 (![0, 1, 3] : Fin 3 → Fin S1x768x1x128.rank)
  bcast_S1x768x128_S1x1x768x128_0_2_3 : S1x768x128.BroadcastsInDim S1x1x768x128 (![0, 2, 3] : Fin 3 → Fin S1x1x768x128.rank)
  bcast_S1x768x1x128_S1x768x768x128_0_1_2_3 : S1x768x1x128.BroadcastsInDim S1x768x768x128 (![0, 1, 2, 3] : Fin 4 → Fin S1x768x768x128.rank)
  bcast_S1x1x768x128_S1x768x768x128_0_1_2_3 : S1x1x768x128.BroadcastsInDim S1x768x768x128 (![0, 1, 2, 3] : Fin 4 → Fin S1x768x768x128.rank)
  bcast_S128_S1x1x1x128_3 : S128.BroadcastsInDim S1x1x1x128 (![3] : Fin 1 → Fin S1x1x1x128.rank)
  bcast_S1x1x1x128_S1x768x768x128_0_1_2_3 : S1x1x1x128.BroadcastsInDim S1x768x768x128 (![0, 1, 2, 3] : Fin 4 → Fin S1x768x768x128.rank)
  dot_S1x768x128_S128x128_S1x768x128_2_1_01_0_n_n_wf : DotDims.WF S1x768x128 S128x128 S1x768x128 [2] [1] [0, 1] [0] [] []
  dot_S1x768x768x128_S128x128_S1x768x768x128_3_1_012_0_n_n_wf : DotDims.WF S1x768x768x128 S128x128 S1x768x768x128 [3] [1] [0, 1, 2] [0] [] []

variable [Facts₀]

def dot_S1x768x128_S128x128_S1x768x128_2_1_01_0_n_n : DotDims S1x768x128 S128x128 S1x768x128 where
  lhsContracting := [2]
  rhsContracting := [1]
  lhsNonContracting := [0, 1]
  rhsNonContracting := [0]
  lhsBatch := []
  rhsBatch := []
  wf := dot_S1x768x128_S128x128_S1x768x128_2_1_01_0_n_n_wf
def dot_S1x768x768x128_S128x128_S1x768x768x128_3_1_012_0_n_n : DotDims S1x768x768x128 S128x128 S1x768x768x128 where
  lhsContracting := [3]
  rhsContracting := [1]
  lhsNonContracting := [0, 1, 2]
  rhsNonContracting := [0]
  lhsBatch := []
  rhsBatch := []
  wf := dot_S1x768x768x128_S128x128_S1x768x768x128_3_1_012_0_n_n_wf

class Facts : Prop extends Facts₀ where

variable [Facts]
-- ==== Proof.KernelRegion.lean ====
/-
  The kernel region of the kernel as printed, point by point.

  The launch is a 6 x 6 grid. At the point (i, j) the body is handed five blocks: rows 128 i .. 128 i + 127 of the
  768 x 128 array `left` (window 0), rows 128 j .. 128 j + 127 of THE SAME array (window 1), the whole 128 x 128
  weight (window 2), the whole bias (window 3), and the 128 x 128 x 128 block (i, j, 0) of the 768 x 768 x 128 result
  (window 4). It reads the four inputs whole, computes one value of the result block's shape, and stores it over the
  whole result block. So an input buffer holds its block before and after the body, and the result buffer holds
  that one value of the four input blocks after it.

  Windows 0 and 1 read one array. Reading needs no exclusive hold on it, so the array's hold is dealt in two
  halves, one to each window; every other window's array is held whole.
-/
import proofs.«179477_j46505905881344_2_alg».proof.Proof.Gen.Kernel.Launch
import proofs.«179477_j46505905881344_2_alg».proof.Proof.Gen.Kernel.Skeleton
import proofs.«179477_j46505905881344_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the five host operations that
    compute `left`. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the reshape after it: it reduces to the
    region continued by the reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether or not the point fetches it (a point that does
    not fetch has the block index of the point before), for any proof data over `V` whose body leaves the block
    in place. One lemma per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result buffer -/

/-- The rectangles the body reads and writes through: each the whole of its buffer. -/
abbrev rMat : Rect S128x128 := Rect.unit (s := S128x128) ![0, 0] S128x128.size inb_S128x128_S128x128_0_0
abbrev rVec : Rect S128 := Rect.unit (s := S128) ![0] S128.size inb_S128_S128_0
abbrev rOut : Rect S128x128x128 := Rect.unit (s := S128x128x128) ![0, 0, 0] S128x128x128.size inb_S128x128x128_S128x128x128_0_0_0

/-- The result buffer after the body: its one store, of the body's one value of the four input blocks. -/
def outBlock (x0 x1 x2 : Vec F S128x128 .f32) (x3 : Vec F S128 .f32) : Vec F S128x128x128 .f32 :=
  View.canon [⟨rOut, k0_pay1 (View.ld x0 rMat) (View.ld x1 rMat) (View.ld x2 rMat) (View.ld x3 rVec)⟩]

/-- The one store covers the buffer. -/
theorem outCover (p0 : Vec F S128x128x128 .f32) (y : S128x128x128.Idx) :
    ∃ pc ∈ ([⟨rOut, p0⟩] : List (View.Piece (Elt F) S128x128x128 .f32)), y ∈ pc.1.set :=
  View.cover_of_tiled [⟨rOut, p0⟩] S128x128x128.size (by rfl) y

/-! ## The body's triple -/

set_option maxHeartbeats 1000000 in
/-- The body on whole buffers, the inputs' at contents `x0 .. x3` and the result's at anything, runs to its end holding
    the inputs' as they were and the result's at `outBlock` of them. -/
theorem sound_kernel (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S128x128x128 .f32) (harg6 : arg6.IsWhole)
    (x0 x1 x2 : Vec F S128x128 .f32) (x3 : Vec F S128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0__outer_proj_kernel i arg2 harg2 arg3 harg3 arg4 harg4 arg5 harg5 arg6 harg6) K := by
  simp only [cc0__outer_proj_kernel_eq_skeleton]; unfold cc0__outer_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data -/

/-- The proof data of the pipeline on core `c`: the arrays as the region finds them; after the body at point `t` each
    input's buffer at its block and the result's at `outBlock` of the four input blocks; the invariant the scoped
    buffers no window stages; nothing owed; the array `left` held half by window 0 and half by window 1, every other
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.KernelLaunch.lean ====
/-
  The launch of the kernel as printed: the whole program run from any memory.

  The program computes `left` on the host, runs the region over its 36 points, and reshapes the region's result. The
  region's windows 0 and 1 both read `left`, so where the launch holds each array's buffer whole, the hold on
  `left` is dealt in two halves to those two windows on the way in and put together again on the way out (both
  halves still at the contents `left` had: an input array is never written). The reshape after the region reads the
  result array and writes the program's result; every argument array is written by nobody.
-/
import proofs.«179477_j46505905881344_2_alg».proof.Proof.KernelRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers and the windows' arrays -/

/-- The buffers behind the windows' arrays, one by one: `left`, the weight, the bias, the result. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v4) ↦{fullShare} Vv main_v4) ∗ (((c : Thread nD τ).loc main_arg3) ↦{fullShare} Vv main_arg3)
          ∗ (((c : Thread nD τ).loc main_arg4) ↦{fullShare} Vv main_arg4) ∗ (((c : Thread nD τ).loc main_v5) ↦{fullShare} Vv main_v5)) := by
  unfold Pipeline.arrBufs
  exact bigSep_eq_bigSepL_of_eq [main_v4, main_arg3, main_arg4, main_v5] (by decide) (by decide) _

/-- The windows' arrays, one by one, each at its window's share. -/
theorem arrays_chain (c : Dev nD) (Fv : (w : Fin cfg0.W) → Buf (Elt F) ((cfg0.win w).arr.view.loc (c.tc : Thread nD τ))) :
    ((dats m 0 c).arrays Fv : sProp 𝕄)
      = iprop((((c : Thread nD τ).loc main_v4) ↦{fullShare.left} Fv 0) ∗ (((c : Thread nD τ).loc main_v4) ↦{fullShare.right} Fv 1)
          ∗ (((c : Thread nD τ).loc main_arg3) ↦{fullShare} Fv 2) ∗ (((c : Thread nD τ).loc main_arg4) ↦{fullShare} Fv 3)
          ∗ (((c : Thread nD τ).loc main_v5) ↦{fullShare} Fv 4)) := by
  unfold Dat.arrays
  rw [bigSep_W0]
  rw [(arr_whole0 0).set_eq_univ, (arr_whole0 2).set_eq_univ, (arr_whole0 3).set_eq_univ, (arr_whole0 4).set_eq_univ]
  rfl

/-- The buffers behind the arrays, each held whole, are the windows' arrays at the same contents: the hold on `left`
    dealt in two halves to the two windows that read it. -/
theorem arrays_of_bufs (c : Dev nD) (Vv : (b : Ref sig .tc) → Buf (Elt F) ((c : Thread nD τ).loc b))
    (Fv : (w : Fin cfg0.W) → Buf (Elt F) ((cfg0.win w).arr.view.loc (c.tc : Thread nD τ)))
    (h0 : Fv 0 = Vv main_v4) (h1 : Fv 1 = Vv main_v4) (h2 : Fv 2 = Vv main_arg3) (h3 : Fv 3 = Vv main_arg4) (h4 : Fv 4 = Vv main_v5) :
    (Pipeline.arrBufs (Ix := Unit) (Name := ℕ) (U := UR sig nD τ) (Lvl := ℕ) spec0 c Vv : sProp 𝕄) ⊢ (dats m 0 c).arrays Fv := by
  rw [arrBufs_chain, arrays_chain, h0, h1, h2, h3, h4]
  iintro ⟨H4, Ha3, Ha4, H5⟩
  ihave H := (pointsTo_share (PosShare.mem_left_op_right fullShare)).1 $$ H4
  icases H with ⟨Hl, Hr⟩
  isplitl [Hl]; · iexact Hl
  isplitl [Hr]; · iexact Hr
  isplitl [Ha3]; · iexact Ha3
  isplitl [Ha4]; · iexact Ha4
  iexact H5

/-- And back: the two halves of the hold on `left`, at one contents, are the whole hold. -/
theorem bufs_of_arrays (c : Dev nD) (Vv : (b : Ref sig .tc) → Buf (Elt F) ((c : Thread nD τ).loc b))
    (Fv : (w : Fin cfg0.W) → Buf (Elt F) ((cfg0.win w).arr.view.loc (c.tc : Thread nD τ)))
    (h0 : Fv 0 = Vv main_v4) (h1 : Fv 1 = Vv main_v4) (h2 : Fv 2 = Vv main_arg3) (h3 : Fv 3 = Vv main_arg4) (h4 : Fv 4 = Vv main_v5) :
    ((dats m 0 c).arrays Fv : sProp 𝕄) ⊢ Pipeline.arrBufs (Ix := Unit) (Name := ℕ) (U := UR sig nD τ) (Lvl := ℕ) spec0 c Vv := by
  rw [arrBufs_chain, arrays_chain, h0, h1, h2, h3, h4]
  iintro ⟨Hl, Hr, Ha3, Ha4, H5⟩
  isplitl [Hl Hr]
  · iapply (pointsTo_share (PosShare.mem_left_op_right fullShare)).2
    isplitl [Hl]; · iexact Hl
    iexact Hr
  isplitl [Ha3]; · iexact Ha3
  isplitl [Ha4]; · iexact Ha4
  iexact H5

/-! ## The buffers when the region is left, and after the reshape -/

/-- Core `c`'s buffer contents when the region is left: the result array at what the 36 write-backs made of it, every
    other buffer as the region found it. -/
def Vexit (c : Dev nD) : Valuation τ sig (Elt F) :=
  Function.update (V0 m c) (Proc.devRef .tc main_v5) ((dats m 0 c).arrAt 4 cfg0.N)

/-- And after the reshape that follows the region. -/
def Vfin (c : Dev nD) : Valuation τ sig (Elt F) := StableHlo.after hostOps1 (Vexit m c)

theorem Vexit_v5 (c : Dev nD) : Vexit m c (Proc.devRef .tc main_v5) = (dats m 0 c).arrAt 4 cfg0.N :=
  Function.update_self _ _ _

theorem Vexit_of_ne (c : Dev nD) (b : Ref sig .tc) (hb : b ≠ main_v5) : Vexit m c (Proc.devRef .tc b) = V m c b :=
  Function.update_of_ne (StableHlo.devRef_ne_of_ne hb) _ _

/-- The reshape writes the program's result and nothing else. -/
theorem Vfin_of_ne (c : Dev nD) (b : Ref sig .tc) (hb : b ≠ main_v6) : Vfin m c (Proc.devRef .tc b) = Vexit m c (Proc.devRef .tc b) :=
  StableHlo.after_of_forall_not_mem (b := Proc.devRef .tc b) _ _ (fun op hop => by
    simp only [hostOps1, List.mem_cons, List.mem_nil_iff, or_false] at hop
    subst hop
    simp only [StableHlo.reshape_writes, Finset.mem_singleton]
    exact StableHlo.devRef_ne_of_ne hb)

/-- An input array ends as the region found it. -/
theorem arrAt0 (c : Dev nD) (n : Nat) : (dats m 0 c).arrAt 0 n = V m c main_v4 := (dats m 0 c).arrAt_in 0 rfl n
theorem arrAt1 (c : Dev nD) (n : Nat) : (dats m 0 c).arrAt 1 n = V m c main_v4 := (dats m 0 c).arrAt_in 1 rfl n
theorem arrAt2 (c : Dev nD) (n : Nat) : (dats m 0 c).arrAt 2 n = V m c main_arg3 := (dats m 0 c).arrAt_in 2 rfl n
theorem arrAt3 (c : Dev nD) (n : Nat) : (dats m 0 c).arrAt 3 n = V m c main_arg4 := (dats m 0 c).arrAt_in 3 rfl n

/-- What the region hands back — the windows' arrays at their final contents and the buffers that bypass the region as
    they were — is every unscoped buffer held whole at the exit contents. -/
theorem held_of_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Vexit m c) : sProp 𝕄) := by
  rw [← Pipeline.unscopedBufs_held (Ix := Unit) (Name := ℕ) (U := UR sig nD τ) (Lvl := ℕ) c (Vexit m c),
    Pipeline.unscopedBufs_split₀ (Ix := Unit) (Name := ℕ) (U := UR sig nD τ) (Lvl := ℕ) cfgs (0 : Fin 1) winFacts₀0.arr_unscoped c,
    unscopedRest0_eq, unscopedRest0_eq]
  simp only [Vexit_of_ne m c main_arg0 (by decide), Vexit_of_ne m c main_arg1 (by decide), Vexit_of_ne m c main_arg2 (by decide),
    Vexit_of_ne m c main_v0 (by decide), Vexit_of_ne m c main_v1 (by decide), Vexit_of_ne m c main_v2 (by decide),
    Vexit_of_ne m c main_v3 (by decide), Vexit_of_ne m c main_v6 (by decide)]
  iintro ⟨Ha, Hr⟩
  isplitl [Ha]
  · iapply (bufs_of_arrays m c (fun b => Vexit m c (Proc.devRef .tc b)) ((dats m 0 c).arrAt · cfg0.N)
      ((arrAt0 m c _).trans (Vexit_of_ne m c main_v4 (by decide)).symm) ((arrAt1 m c _).trans (Vexit_of_ne m c main_v4 (by decide)).symm)
      ((arrAt2 m c _).trans (Vexit_of_ne m c main_arg3 (by decide)).symm) ((arrAt3 m c _).trans (Vexit_of_ne m c main_arg4 (by decide)).symm)
      (Vexit_v5 m c).symm)
    iexact Ha
  · iexact Hr

/-- And after the reshape every unscoped buffer held whole at the final contents is the windows' arrays, unchanged, and
    the bypassing buffers at the final contents. -/
theorem exit_of_held (c : Dev nD) :
    (StableHlo.held (c.tc : Thread nD τ) (Pipeline.ucRefs τ sig) (Vfin m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => Vfin m c (Proc.devRef .tc b))) := by
  rw [← Pipeline.unscopedBufs_held (Ix := Unit) (Name := ℕ) (U := UR sig nD τ) (Lvl := ℕ) c (Vfin m c),
    Pipeline.unscopedBufs_split₀ (Ix := Unit) (Name := ℕ) (U := UR sig nD τ) (Lvl := ℕ) cfgs (0 : Fin 1) winFacts₀0.arr_unscoped c]
  iintro ⟨Ha, Hr⟩
  isplitl [Ha]
  · iapply (arrays_of_bufs m c (fun b => Vfin m c (Proc.devRef .tc b)) ((dats m 0 c).arrAt · cfg0.N)
      ((arrAt0 m c _).trans (((Vfin_of_ne m c main_v4 (by decide)).trans (Vexit_of_ne m c main_v4 (by decide))).symm))
      ((arrAt1 m c _).trans (((Vfin_of_ne m c main_v4 (by decide)).trans (Vexit_of_ne m c main_v4 (by decide))).symm))
      ((arrAt2 m c _).trans (((Vfin_of_ne m c main_arg3 (by decide)).trans (Vexit_of_ne m c main_arg3 (by decide))).symm))
      ((arrAt3 m c _).trans (((Vfin_of_ne m c main_arg4 (by decide)).trans (Vexit_of_ne m c main_arg4 (by decide))).symm))
      (((Vfin_of_ne m c main_v5 (by decide)).trans (Vexit_v5 m c)).symm))
    iexact Ha
  · iexact Hr

/-! ## The reshape after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the reshape runs, and hands back the arrays as they were and the bypassing buffers at the
    final contents. -/
theorem tail_run (c : Dev nD) (Q' : PUnit → sProp 𝕄) :
    iprop((iprop((dats m 0 c).arrays ((dats m 0 c).arrAt · cfg0.N)
            ∗ Pipeline.unscopedRest (Ix := Unit) (Name := ℕ) (U := UR sig nD τ) (Lvl := ℕ) spec0 c (fun b => Vfin m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain [StableHlo.seq hostOps1]) Q' := by
  iintro ⟨Hk, Hb, Ha, Hr⟩
  ihave Hh := (held_of_exit m c) $$ [Ha Hr]
  · isplitl [Ha]; · iexact Ha
    iexact Hr
  iapply (Pipeline.wp_seqs_then (fun q => (cfgs q).toPCfg (Val := Elt F)) defs₀ Variants.none c (Pipeline.ucRefs τ sig) [] [hostOps1]
    tail_sub tail_fresh (Vexit m c)) $$ [Hb Hh]
  · isplitl [Hb]; · iexact Hb
    iexact Hh
  iintro Hb
  rw [Pipeline.chain_nil, wp_pure]
  imodintro
  iapply Hk
  icases Hb with ⟨-, H⟩
  iapply (exit_of_held m c)
  iexact H

/-! ## The arguments are written by nobody -/

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The run -/

/-- The invariant is the scoped buffers no window stages: it is entered from them and gives them back. -/
theorem phi_in (c : Dev nD) (P Q : sProp 𝕄) :
    iprop(P ∗ Q ∗ (Pipeline.scopedRest (Ix := Unit) (Name := ℕ) (U := UR sig nD τ) (Lvl := ℕ) (Val := Elt F) spec0 c : sProp 𝕄))
      ⊢ (dats m 0 c).Φ 0 := by
  show iprop(P ∗ Q ∗ (Pipeline.scopedRest (Ix := Unit) (Name := ℕ) (U := UR sig nD τ) (Lvl := ℕ) (Val := Elt F) spec0 c : sProp 𝕄))
    ⊢ (Pipeline.scopedRest (Ix := Unit) (Name := ℕ) (U := UR sig nD τ) (Lvl := ℕ) (Val := Elt F) spec0 c : sProp 𝕄)
  iintro ⟨-, -, H⟩
  iexact H
theorem phi_out (c : Dev nD) :
    (dats m 0 c).Φ (Fin.last cfg0.N)
      ⊢ iprop(iprop(emp) ∗ (Pipeline.scopedRest (Ix := Unit) (Name := ℕ) (U := UR sig nD τ) (Lvl := ℕ) (Val := Elt F) spec0 c : sProp 𝕄)) := by
  show (Pipeline.scopedRest (Ix := Unit) (Name := ℕ) (U := UR sig nD τ) (Lvl := ℕ) (Val := Elt F) spec0 c : sProp 𝕄) ⊢ _
  iintro H
  isplitr; · iempintro
  iexact H

set_option backward.isDefEq.respectTransparency.types false in
/-- From any memory with zero counters every weakly fair execution of the program terminates, without a fault, with the
    program's result at the final contents `Vfin` and every argument array as launched. -/
theorem run_main : θ_run defs (onTc (τ := τ) (main (F := F))) ⟨m, fun _ => 0, ρ⟩ (fun r => ∀ c : Dev nD,
      r.2.mem ((c.tc : Thread nD τ).loc main_v6) = Vfin m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := fun c => arrays_of_bufs m c (V m c) ((dats m 0 c).arrAt · 0) (A_eq m c 0) (A_eq m c 1) (A_eq m c 2) (A_eq m c 3) (A_eq m c 4))
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vfin m c (Proc.devRef .tc b)))
    (hX := fun c => by
      rw [Pipeline.unscopedRestP_none]
      iintro H
      isplitr; · iempintro
      iexact H)
    (hin := fun c => phi_in m c _ _)
    (hout := fun c => phi_out m c)
    (htail := fun c Q' => tail_run m c Q')
    (QY := fun c s => ∀ b ∈ Pipeline.restRefs sig spec0, s.mem ((c.tc : Thread nD τ).loc b) = Vfin m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vfin m c (Proc.devRef .tc b)) s')
      isplitl [HU] <;> iassumption)
    (hQ := fun s h c =>
      ⟨(h c).2.2 main_v6 (Pipeline.mem_restRefs_of main_v6 (by decide) (by decide)),
       ((h c).2.2 main_arg0 (Pipeline.mem_restRefs_of main_arg0 (by decide) (by decide))).trans
         ((Vfin_of_ne m c main_arg0 (by decide)).trans ((Vexit_of_ne m c main_arg0 (by decide)).trans (V_main_arg0 m c))),
       ((h c).2.2 main_arg1 (Pipeline.mem_restRefs_of main_arg1 (by decide) (by decide))).trans
         ((Vfin_of_ne m c main_arg1 (by decide)).trans ((Vexit_of_ne m c main_arg1 (by decide)).trans (V_main_arg1 m c))),
       ((h c).2.2 main_arg2 (Pipeline.mem_restRefs_of main_arg2 (by decide) (by decide))).trans
         ((Vfin_of_ne m c main_arg2 (by decide)).trans ((Vexit_of_ne m c main_arg2 (by decide)).trans (V_main_arg2 m c))),
       ((h c).1 2).trans ((arrAt2 m c _).trans (V_main_arg3 m c)),
       ((h c).1 3).trans ((arrAt3 m c _).trans (V_main_arg4 m c))⟩)

end Cert.Kernel.Region

end
-- ==== Proof.KernelIdealRegion.lean ====
/-
  The kernel region of the idealized kernel, point by point.

  The launch is a 6 x 6 grid. At the point (i, j) the body is handed five blocks: rows 128 i .. 128 i + 127 of the
  768 x 128 array `left` (window 0), rows 128 j .. 128 j + 127 of THE SAME array (window 1), the whole 128 x 128
  weight (window 2), the whole bias (window 3), and the 128 x 128 x 128 block (i, j, 0) of the 768 x 768 x 128 result
  (window 4). It reads the four inputs whole, computes one value of the result block's shape, and stores it over the
  whole result block. So an input buffer holds its block before and after the body, and the result buffer holds
  that one value of the four input blocks after it.

  Windows 0 and 1 read one array. Reading needs no exclusive hold on it, so the array's hold is dealt in two
  halves, one to each window; every other window's array is held whole.
-/
import proofs.«179477_j46505905881344_2_alg».proof.Proof.Gen.KernelIdeal.Launch
import proofs.«179477_j46505905881344_2_alg».proof.Proof.Gen.KernelIdeal.Skeleton
import proofs.«179477_j46505905881344_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the five host operations that
    compute `left`. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the reshape after it: it reduces to the
    region continued by the reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether or not the point fetches it (a point that does
    not fetch has the block index of the point before), for any proof data over `V` whose body leaves the block
    in place. One lemma per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result buffer -/

/-- The rectangles the body reads and writes through: each the whole of its buffer. -/
abbrev rMat : Rect S128x128 := Rect.unit (s := S128x128) ![0, 0] S128x128.size inb_S128x128_S128x128_0_0
abbrev rVec : Rect S128 := Rect.unit (s := S128) ![0] S128.size inb_S128_S128_0
abbrev rOut : Rect S128x128x128 := Rect.unit (s := S128x128x128) ![0, 0, 0] S128x128x128.size inb_S128x128x128_S128x128x128_0_0_0

/-- The result buffer after the body: its one store, of the body's one value of the four input blocks. -/
def outBlock (x0 x1 x2 : Vec F S128x128 .f32) (x3 : Vec F S128 .f32) : Vec F S128x128x128 .f32 :=
  View.canon [⟨rOut, k0_pay1 (View.ld x0 rMat) (View.ld x1 rMat) (View.ld x2 rMat) (View.ld x3 rVec)⟩]

/-- The one store covers the buffer. -/
theorem outCover (p0 : Vec F S128x128x128 .f32) (y : S128x128x128.Idx) :
    ∃ pc ∈ ([⟨rOut, p0⟩] : List (View.Piece (Elt F) S128x128x128 .f32)), y ∈ pc.1.set :=
  View.cover_of_tiled [⟨rOut, p0⟩] S128x128x128.size (by rfl) y

/-! ## The body's triple -/

set_option maxHeartbeats 1000000 in
/-- The body on whole buffers, the inputs' at contents `x0 .. x3` and the result's at anything, runs to its end holding
    the inputs' as they were and the result's at `outBlock` of them. -/
theorem sound_kernel (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S128x128x128 .f32) (harg6 : arg6.IsWhole)
    (x0 x1 x2 : Vec F S128x128 .f32) (x3 : Vec F S128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0__outer_proj_kernel i arg2 harg2 arg3 harg3 arg4 harg4 arg5 harg5 arg6 harg6) K := by
  simp only [cc0__outer_proj_kernel_eq_skeleton]; unfold cc0__outer_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data -/

/-- The proof data of the pipeline on core `c`: the arrays as the region finds them; after the body at point `t` each
    input's buffer at its block and the result's at `outBlock` of the four input blocks; the invariant the scoped
    buffers no window stages; nothing owed; the array `left` held half by window 0 and half by window 1, every other
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KernelIdealLaunch.lean ====
/-
  The launch of the idealized kernel: the whole program run from any memory.

  The program computes `left` on the host, runs the region over its 36 points, and reshapes the region's result. The
  region's windows 0 and 1 both read `left`, so where the launch holds each array's buffer whole, the hold on
  `left` is dealt in two halves to those two windows on the way in and put together again on the way out (both
  halves still at the contents `left` had: an input array is never written). The reshape after the region reads the
  result array and writes the program's result; every argument array is written by nobody.
-/
import proofs.«179477_j46505905881344_2_alg».proof.Proof.KernelIdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers and the windows' arrays -/

/-- The buffers behind the windows' arrays, one by one: `left`, the weight, the bias, the result. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v4) ↦{fullShare} Vv main_v4) ∗ (((c : Thread nD τ).loc main_arg3) ↦{fullShare} Vv main_arg3)
          ∗ (((c : Thread nD τ).loc main_arg4) ↦{fullShare} Vv main_arg4) ∗ (((c : Thread nD τ).loc main_v5) ↦{fullShare} Vv main_v5)) := by
  unfold Pipeline.arrBufs
  exact bigSep_eq_bigSepL_of_eq [main_v4, main_arg3, main_arg4, main_v5] (by decide) (by decide) _

/-- The windows' arrays, one by one, each at its window's share. -/
theorem arrays_chain (c : Dev nD) (Fv : (w : Fin cfg0.W) → Buf (Elt F) ((cfg0.win w).arr.view.loc (c.tc : Thread nD τ))) :
    ((dats m 0 c).arrays Fv : sProp 𝕄)
      = iprop((((c : Thread nD τ).loc main_v4) ↦{fullShare.left} Fv 0) ∗ (((c : Thread nD τ).loc main_v4) ↦{fullShare.right} Fv 1)
          ∗ (((c : Thread nD τ).loc main_arg3) ↦{fullShare} Fv 2) ∗ (((c : Thread nD τ).loc main_arg4) ↦{fullShare} Fv 3)
          ∗ (((c : Thread nD τ).loc main_v5) ↦{fullShare} Fv 4)) := by
  unfold Dat.arrays
  rw [bigSep_W0]
  rw [(arr_whole0 0).set_eq_univ, (arr_whole0 2).set_eq_univ, (arr_whole0 3).set_eq_univ, (arr_whole0 4).set_eq_univ]
  rfl

/-- The buffers behind the arrays, each held whole, are the windows' arrays at the same contents: the hold on `left`
    dealt in two halves to the two windows that read it. -/
theorem arrays_of_bufs (c : Dev nD) (Vv : (b : Ref sig .tc) → Buf (Elt F) ((c : Thread nD τ).loc b))
    (Fv : (w : Fin cfg0.W) → Buf (Elt F) ((cfg0.win w).arr.view.loc (c.tc : Thread nD τ)))
    (h0 : Fv 0 = Vv main_v4) (h1 : Fv 1 = Vv main_v4) (h2 : Fv 2 = Vv main_arg3) (h3 : Fv 3 = Vv main_arg4) (h4 : Fv 4 = Vv main_v5) :
    (Pipeline.arrBufs (Ix := Unit) (Name := ℕ) (U := UR sig nD τ) (Lvl := ℕ) spec0 c Vv : sProp 𝕄) ⊢ (dats m 0 c).arrays Fv := by
  rw [arrBufs_chain, arrays_chain, h0, h1, h2, h3, h4]
  iintro ⟨H4, Ha3, Ha4, H5⟩
  ihave H := (pointsTo_share (PosShare.mem_left_op_right fullShare)).1 $$ H4
  icases H with ⟨Hl, Hr⟩
  isplitl [Hl]; · iexact Hl
  isplitl [Hr]; · iexact Hr
  isplitl [Ha3]; · iexact Ha3
  isplitl [Ha4]; · iexact Ha4
  iexact H5

/-- And back: the two halves of the hold on `left`, at one contents, are the whole hold. -/
theorem bufs_of_arrays (c : Dev nD) (Vv : (b : Ref sig .tc) → Buf (Elt F) ((c : Thread nD τ).loc b))
    (Fv : (w : Fin cfg0.W) → Buf (Elt F) ((cfg0.win w).arr.view.loc (c.tc : Thread nD τ)))
    (h0 : Fv 0 = Vv main_v4) (h1 : Fv 1 = Vv main_v4) (h2 : Fv 2 = Vv main_arg3) (h3 : Fv 3 = Vv main_arg4) (h4 : Fv 4 = Vv main_v5) :
    ((dats m 0 c).arrays Fv : sProp 𝕄) ⊢ Pipeline.arrBufs (Ix := Unit) (Name := ℕ) (U := UR sig nD τ) (Lvl := ℕ) spec0 c Vv := by
  rw [arrBufs_chain, arrays_chain, h0, h1, h2, h3, h4]
  iintro ⟨Hl, Hr, Ha3, Ha4, H5⟩
  isplitl [Hl Hr]
  · iapply (pointsTo_share (PosShare.mem_left_op_right fullShare)).2
    isplitl [Hl]; · iexact Hl
    iexact Hr
  isplitl [Ha3]; · iexact Ha3
  isplitl [Ha4]; · iexact Ha4
  iexact H5

/-! ## The buffers when the region is left, and after the reshape -/

/-- Core `c`'s buffer contents when the region is left: the result array at what the 36 write-backs made of it, every
    other buffer as the region found it. -/
def Vexit (c : Dev nD) : Valuation τ sig (Elt F) :=
  Function.update (V0 m c) (Proc.devRef .tc main_v5) ((dats m 0 c).arrAt 4 cfg0.N)

/-- And after the reshape that follows the region. -/
def Vfin (c : Dev nD) : Valuation τ sig (Elt F) := StableHlo.after hostOps1 (Vexit m c)

theorem Vexit_v5 (c : Dev nD) : Vexit m c (Proc.devRef .tc main_v5) = (dats m 0 c).arrAt 4 cfg0.N :=
  Function.update_self _ _ _

theorem Vexit_of_ne (c : Dev nD) (b : Ref sig .tc) (hb : b ≠ main_v5) : Vexit m c (Proc.devRef .tc b) = V m c b :=
  Function.update_of_ne (StableHlo.devRef_ne_of_ne hb) _ _

/-- The reshape writes the program's result and nothing else. -/
theorem Vfin_of_ne (c : Dev nD) (b : Ref sig .tc) (hb : b ≠ main_v6) : Vfin m c (Proc.devRef .tc b) = Vexit m c (Proc.devRef .tc b) :=
  StableHlo.after_of_forall_not_mem (b := Proc.devRef .tc b) _ _ (fun op hop => by
    simp only [hostOps1, List.mem_cons, List.mem_nil_iff, or_false] at hop
    subst hop
    simp only [StableHlo.reshape_writes, Finset.mem_singleton]
    exact StableHlo.devRef_ne_of_ne hb)

/-- An input array ends as the region found it. -/
theorem arrAt0 (c : Dev nD) (n : Nat) : (dats m 0 c).arrAt 0 n = V m c main_v4 := (dats m 0 c).arrAt_in 0 rfl n
theorem arrAt1 (c : Dev nD) (n : Nat) : (dats m 0 c).arrAt 1 n = V m c main_v4 := (dats m 0 c).arrAt_in 1 rfl n
theorem arrAt2 (c : Dev nD) (n : Nat) : (dats m 0 c).arrAt 2 n = V m c main_arg3 := (dats m 0 c).arrAt_in 2 rfl n
theorem arrAt3 (c : Dev nD) (n : Nat) : (dats m 0 c).arrAt 3 n = V m c main_arg4 := (dats m 0 c).arrAt_in 3 rfl n

/-- What the region hands back — the windows' arrays at their final contents and the buffers that bypass the region as
    they were — is every unscoped buffer held whole at the exit contents. -/
theorem held_of_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Vexit m c) : sProp 𝕄) := by
  rw [← Pipeline.unscopedBufs_held (Ix := Unit) (Name := ℕ) (U := UR sig nD τ) (Lvl := ℕ) c (Vexit m c),
    Pipeline.unscopedBufs_split₀ (Ix := Unit) (Name := ℕ) (U := UR sig nD τ) (Lvl := ℕ) cfgs (0 : Fin 1) winFacts₀0.arr_unscoped c,
    unscopedRest0_eq, unscopedRest0_eq]
  simp only [Vexit_of_ne m c main_arg0 (by decide), Vexit_of_ne m c main_arg1 (by decide), Vexit_of_ne m c main_arg2 (by decide),
    Vexit_of_ne m c main_v0 (by decide), Vexit_of_ne m c main_v1 (by decide), Vexit_of_ne m c main_v2 (by decide),
    Vexit_of_ne m c main_v3 (by decide), Vexit_of_ne m c main_v6 (by decide)]
  iintro ⟨Ha, Hr⟩
  isplitl [Ha]
  · iapply (bufs_of_arrays m c (fun b => Vexit m c (Proc.devRef .tc b)) ((dats m 0 c).arrAt · cfg0.N)
      ((arrAt0 m c _).trans (Vexit_of_ne m c main_v4 (by decide)).symm) ((arrAt1 m c _).trans (Vexit_of_ne m c main_v4 (by decide)).symm)
      ((arrAt2 m c _).trans (Vexit_of_ne m c main_arg3 (by decide)).symm) ((arrAt3 m c _).trans (Vexit_of_ne m c main_arg4 (by decide)).symm)
      (Vexit_v5 m c).symm)
    iexact Ha
  · iexact Hr

/-- And after the reshape every unscoped buffer held whole at the final contents is the windows' arrays, unchanged, and
    the bypassing buffers at the final contents. -/
theorem exit_of_held (c : Dev nD) :
    (StableHlo.held (c.tc : Thread nD τ) (Pipeline.ucRefs τ sig) (Vfin m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => Vfin m c (Proc.devRef .tc b))) := by
  rw [← Pipeline.unscopedBufs_held (Ix := Unit) (Name := ℕ) (U := UR sig nD τ) (Lvl := ℕ) c (Vfin m c),
    Pipeline.unscopedBufs_split₀ (Ix := Unit) (Name := ℕ) (U := UR sig nD τ) (Lvl := ℕ) cfgs (0 : Fin 1) winFacts₀0.arr_unscoped c]
  iintro ⟨Ha, Hr⟩
  isplitl [Ha]
  · iapply (arrays_of_bufs m c (fun b => Vfin m c (Proc.devRef .tc b)) ((dats m 0 c).arrAt · cfg0.N)
      ((arrAt0 m c _).trans (((Vfin_of_ne m c main_v4 (by decide)).trans (Vexit_of_ne m c main_v4 (by decide))).symm))
      ((arrAt1 m c _).trans (((Vfin_of_ne m c main_v4 (by decide)).trans (Vexit_of_ne m c main_v4 (by decide))).symm))
      ((arrAt2 m c _).trans (((Vfin_of_ne m c main_arg3 (by decide)).trans (Vexit_of_ne m c main_arg3 (by decide))).symm))
      ((arrAt3 m c _).trans (((Vfin_of_ne m c main_arg4 (by decide)).trans (Vexit_of_ne m c main_arg4 (by decide))).symm))
      (((Vfin_of_ne m c main_v5 (by decide)).trans (Vexit_v5 m c)).symm))
    iexact Ha
  · iexact Hr

/-! ## The reshape after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the reshape runs, and hands back the arrays as they were and the bypassing buffers at the
    final contents. -/
theorem tail_run (c : Dev nD) (Q' : PUnit → sProp 𝕄) :
    iprop((iprop((dats m 0 c).arrays ((dats m 0 c).arrAt · cfg0.N)
            ∗ Pipeline.unscopedRest (Ix := Unit) (Name := ℕ) (U := UR sig nD τ) (Lvl := ℕ) spec0 c (fun b => Vfin m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain [StableHlo.seq hostOps1]) Q' := by
  iintro ⟨Hk, Hb, Ha, Hr⟩
  ihave Hh := (held_of_exit m c) $$ [Ha Hr]
  · isplitl [Ha]; · iexact Ha
    iexact Hr
  iapply (Pipeline.wp_seqs_then (fun q => (cfgs q).toPCfg (Val := Elt F)) defs₀ Variants.none c (Pipeline.ucRefs τ sig) [] [hostOps1]
    tail_sub tail_fresh (Vexit m c)) $$ [Hb Hh]
  · isplitl [Hb]; · iexact Hb
    iexact Hh
  iintro Hb
  rw [Pipeline.chain_nil, wp_pure]
  imodintro
  iapply Hk
  icases Hb with ⟨-, H⟩
  iapply (exit_of_held m c)
  iexact H

/-! ## The arguments are written by nobody -/

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The run -/

/-- The invariant is the scoped buffers no window stages: it is entered from them and gives them back. -/
theorem phi_in (c : Dev nD) (P Q : sProp 𝕄) :
    iprop(P ∗ Q ∗ (Pipeline.scopedRest (Ix := Unit) (Name := ℕ) (U := UR sig nD τ) (Lvl := ℕ) (Val := Elt F) spec0 c : sProp 𝕄))
      ⊢ (dats m 0 c).Φ 0 := by
  show iprop(P ∗ Q ∗ (Pipeline.scopedRest (Ix := Unit) (Name := ℕ) (U := UR sig nD τ) (Lvl := ℕ) (Val := Elt F) spec0 c : sProp 𝕄))
    ⊢ (Pipeline.scopedRest (Ix := Unit) (Name := ℕ) (U := UR sig nD τ) (Lvl := ℕ) (Val := Elt F) spec0 c : sProp 𝕄)
  iintro ⟨-, -, H⟩
  iexact H
theorem phi_out (c : Dev nD) :
    (dats m 0 c).Φ (Fin.last cfg0.N)
      ⊢ iprop(iprop(emp) ∗ (Pipeline.scopedRest (Ix := Unit) (Name := ℕ) (U := UR sig nD τ) (Lvl := ℕ) (Val := Elt F) spec0 c : sProp 𝕄)) := by
  show (Pipeline.scopedRest (Ix := Unit) (Name := ℕ) (U := UR sig nD τ) (Lvl := ℕ) (Val := Elt F) spec0 c : sProp 𝕄) ⊢ _
  iintro H
  isplitr; · iempintro
  iexact H

set_option backward.isDefEq.respectTransparency.types false in
/-- From any memory with zero counters every weakly fair execution of the program terminates, without a fault, with the
    program's result at the final contents `Vfin` and every argument array as launched. -/
theorem run_main : θ_run defs (onTc (τ := τ) (main (F := F))) ⟨m, fun _ => 0, ρ⟩ (fun r => ∀ c : Dev nD,
      r.2.mem ((c.tc : Thread nD τ).loc main_v6) = Vfin m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := fun c => arrays_of_bufs m c (V m c) ((dats m 0 c).arrAt · 0) (A_eq m c 0) (A_eq m c 1) (A_eq m c 2) (A_eq m c 3) (A_eq m c 4))
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vfin m c (Proc.devRef .tc b)))
    (hX := fun c => by
      rw [Pipeline.unscopedRestP_none]
      iintro H
      isplitr; · iempintro
      iexact H)
    (hin := fun c => phi_in m c _ _)
    (hout := fun c => phi_out m c)
    (htail := fun c Q' => tail_run m c Q')
    (QY := fun c s => ∀ b ∈ Pipeline.restRefs sig spec0, s.mem ((c.tc : Thread nD τ).loc b) = Vfin m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vfin m c (Proc.devRef .tc b)) s')
      isplitl [HU] <;> iassumption)
    (hQ := fun s h c =>
      ⟨(h c).2.2 main_v6 (Pipeline.mem_restRefs_of main_v6 (by decide) (by decide)),
       ((h c).2.2 main_arg0 (Pipeline.mem_restRefs_of main_arg0 (by decide) (by decide))).trans
         ((Vfin_of_ne m c main_arg0 (by decide)).trans ((Vexit_of_ne m c main_arg0 (by decide)).trans (V_main_arg0 m c))),
       ((h c).2.2 main_arg1 (Pipeline.mem_restRefs_of main_arg1 (by decide) (by decide))).trans
         ((Vfin_of_ne m c main_arg1 (by decide)).trans ((Vexit_of_ne m c main_arg1 (by decide)).trans (V_main_arg1 m c))),
       ((h c).2.2 main_arg2 (Pipeline.mem_restRefs_of main_arg2 (by decide) (by decide))).trans
         ((Vfin_of_ne m c main_arg2 (by decide)).trans ((Vexit_of_ne m c main_arg2 (by decide)).trans (V_main_arg2 m c))),
       ((h c).1 2).trans ((arrAt2 m c _).trans (V_main_arg3 m c)),
       ((h c).1 3).trans ((arrAt3 m c _).trans (V_main_arg4 m c))⟩)

end Cert.KernelIdeal.Region

end
-- ==== Proof.BodyLayout.lean ====
/-
  The body's re-layouts, each read at an index.

  The body turns a 128 x 128 block into a column of rows ([128, 1, 128]) or a row of rows ([1, 128, 128]), repeats either
  along the missing axis to [128, 128, 128], flattens the first two axes ([16384, 128], row 128 p + q) and splits them
  again, and repeats a length-128 vector over both leading axes. None of these moves a value: each result entry is one
  entry of the operand, named here by its coordinates.
-/
import Idealize.ShloMosaic.Lib.Pipeline.Value
import Idealize.ShloMosaic.Lib.ValueIdx

noncomputable section

namespace Cert.OuterProj.Layout

open Idealize.ShloMosaic Idealize.ShloMosaic.ValueIdx

variable {α : Type}

abbrev S128x128 : Shape := ⟨2, ![128, 128]⟩
abbrev S128 : Shape := ⟨1, ![128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S1x1x128 : Shape := ⟨3, ![1, 1, 128]⟩

/-- The flat row of the pair (p, q). -/
abbrev flatRow (p q : Fin 128) : Fin 16384 := ⟨p.val * 128 + q.val, by have := p.isLt; have := q.isLt; omega⟩

/-- A block as a column of rows. -/
theorem cast_col (v : S128x128.Idx → α) (h : S128x128.ShapeCasts S128x1x128) (p d : Fin 128) :
    shapeCast S128x1x128 v h (ix3 p (0 : Fin 1) d) = v (ix2 p d) :=
  shapeCast_apply v h _ _ (by
    rw [Shape.rowMajor_val_two, Shape.rowMajor_val_three]
    show p.val * 128 + d.val = (p.val * 1 + 0) * 128 + d.val
    omega)

/-- A block as a row of rows. -/
theorem cast_row (v : S128x128.Idx → α) (h : S128x128.ShapeCasts S1x128x128) (q d : Fin 128) :
    shapeCast S1x128x128 v h (ix3 (0 : Fin 1) q d) = v (ix2 q d) :=
  shapeCast_apply v h _ _ (by
    rw [Shape.rowMajor_val_two, Shape.rowMajor_val_three]
    show q.val * 128 + d.val = (0 * 128 + q.val) * 128 + d.val
    omega)

/-- The column of rows repeated along the middle axis. -/
theorem bcast_col (v : S128x1x128.Idx → α) (h : S128x1x128.Broadcasts S128x128x128) (p q d : Fin 128) :
    broadcastTo S128x128x128 v h (ix3 p q d) = v (ix3 p (0 : Fin 1) d) :=
  broadcastTo_apply v h _ _ (fun a => match a with
    | ⟨0, _⟩ => by show p.val = if (128 : Nat) = 1 then 0 else p.val; rw [if_neg (by decide)]
    | ⟨1, _⟩ => by show 0 = if (1 : Nat) = 1 then 0 else q.val; rw [if_pos rfl]
    | ⟨2, _⟩ => by show d.val = if (128 : Nat) = 1 then 0 else d.val; rw [if_neg (by decide)])

/-- The row of rows repeated along the leading axis. -/
theorem bcast_row (v : S1x128x128.Idx → α) (h : S1x128x128.Broadcasts S128x128x128) (p q d : Fin 128) :
    broadcastTo S128x128x128 v h (ix3 p q d) = v (ix3 (0 : Fin 1) q d) :=
  broadcastTo_apply v h _ _ (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show d.val = if (128 : Nat) = 1 then 0 else d.val; rw [if_neg (by decide)])

/-- The two leading axes flattened. -/
theorem cast_flat (v : S128x128x128.Idx → α) (h : S128x128x128.ShapeCasts S16384x128) (p q d : Fin 128) :
    shapeCast S16384x128 v h (ix2 (flatRow p q) d) = v (ix3 p q d) :=
  shapeCast_apply v h _ _ (by
    rw [Shape.rowMajor_val_two, Shape.rowMajor_val_three]
    show (p.val * 128 + q.val) * 128 + d.val = (p.val * 128 + q.val) * 128 + d.val
    rfl)

/-- And split again. -/
theorem cast_unflat (v : S16384x128.Idx → α) (h : S16384x128.ShapeCasts S128x128x128) (p q e : Fin 128) :
    shapeCast S128x128x128 v h (ix3 p q e) = v (ix2 (flatRow p q) e) :=
  shapeCast_apply v h _ _ (by
    rw [Shape.rowMajor_val_two, Shape.rowMajor_val_three]
    show (p.val * 128 + q.val) * 128 + e.val = (p.val * 128 + q.val) * 128 + e.val
    rfl)

/-- A vector as a [1, 1, 128] array. -/
theorem cast_vec (v : S128.Idx → α) (h : S128.ShapeCasts S1x1x128) (e : Fin 128) :
    shapeCast S1x1x128 v h (ix3 (0 : Fin 1) (0 : Fin 1) e) = v (ix1 e) :=
  shapeCast_apply v h _ _ (by
    rw [Shape.rowMajor_val_one, Shape.rowMajor_val_three]
    show e.val = (0 * 1 + 0) * 128 + e.val
    omega)

/-- The vector repeated over both leading axes. -/
theorem bcast_vec (v : S1x1x128.Idx → α) (h : S1x1x128.Broadcasts S128x128x128) (p q e : Fin 128) :
    broadcastTo S128x128x128 v h (ix3 p q e) = v (ix3 (0 : Fin 1) (0 : Fin 1) e) :=
  broadcastTo_apply v h _ _ (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show e.val = if (128 : Nat) = 1 then 0 else e.val; rw [if_neg (by decide)])

end Cert.OuterProj.Layout

end
-- ==== Proof.LibTransDot.lean ====
/-
  A matrix product against a transposed right operand, read at an entry.

  For a contraction of an [A, K] array with a [B, K] array over their second axes — no batch axes, the rows of both
  operands kept — the (p, q) entry is the sum over k < K of left (p, k) times right (q, k): the left operand times the
  transpose of the right one. This holds for the product taken on the host and, into a zero accumulator, for the product
  taken in the kernel; both are stated here as sums over `Fin K`.
-/
import Idealize.ShloMosaic.Lib.ValueIdx
import Idealize.ShloMosaic.PureOps.Ideal.Laws

noncomputable section
open scoped BigOperators
namespace Cert.TransDot
open Idealize.ShloMosaic Idealize.ShloMosaic.ValueIdx

variable {A K B : Nat}

/-- The dimension numbers of an [A, K] by [B, K] product. -/
abbrev DotT (A K B : Nat) : Type :=
  DotDims (⟨2, ![A, K]⟩ : Shape) (⟨2, ![B, K]⟩ : Shape) (⟨2, ![A, B]⟩ : Shape)

/-- Both operands' second axes meet; both first axes are kept; nothing is batched. -/
structure IsTrans (d : DotT A K B) : Prop where
  lc : d.lhsContracting = [1]
  rc : d.rhsContracting = [1]
  ln : d.lhsNonContracting = [0]
  rn : d.rhsNonContracting = [0]
  lb : d.lhsBatch = []
  rb : d.rhsBatch = []

section Coordinates
variable (wf : DotDims.WF (⟨2, ![A, K]⟩ : Shape) (⟨2, ![B, K]⟩ : Shape) (⟨2, ![A, B]⟩ : Shape) [1] [1] [0] [0] [] [])

/-- The left operand's row is the entry's row. -/
theorem lhs0 (i : (⟨2, ![A, B]⟩ : Shape).Idx) (q : (⟨[1], [1], [0], [0], [], [], wf⟩ : DotT A K B).contr.Idx) :
    ((⟨[1], [1], [0], [0], [], [], wf⟩ : DotT A K B).lhsIdx i q 0).val = (i 0).val := by
  unfold DotDims.lhsIdx
  rw [dif_neg (show ¬(0 : Fin 2) ∈ (⟨[1], [1], [0], [0], [], [], wf⟩ : DotT A K B).lhsBatch from List.not_mem_nil),
    dif_pos (show (0 : Fin 2) ∈ (⟨[1], [1], [0], [0], [], [], wf⟩ : DotT A K B).lhsNonContracting from List.mem_singleton.mpr rfl)]
  rfl

/-- The left operand's column is the contracted index. -/
theorem lhs1 (i : (⟨2, ![A, B]⟩ : Shape).Idx) (q : (⟨[1], [1], [0], [0], [], [], wf⟩ : DotT A K B).contr.Idx) :
    ((⟨[1], [1], [0], [0], [], [], wf⟩ : DotT A K B).lhsIdx i q 1).val = (q ⟨0, Nat.one_pos⟩).val :=
  (⟨[1], [1], [0], [0], [], [], wf⟩ : DotT A K B).lhsIdx_val_of_single rfl i q

/-- The right operand's row is the entry's column. -/
theorem rhs0 (i : (⟨2, ![A, B]⟩ : Shape).Idx) (q : (⟨[1], [1], [0], [0], [], [], wf⟩ : DotT A K B).contr.Idx) :
    ((⟨[1], [1], [0], [0], [], [], wf⟩ : DotT A K B).rhsIdx i q 0).val = (i 1).val := by
  unfold DotDims.rhsIdx
  rw [dif_neg (show ¬(0 : Fin 2) ∈ (⟨[1], [1], [0], [0], [], [], wf⟩ : DotT A K B).rhsBatch from List.not_mem_nil),
    dif_pos (show (0 : Fin 2) ∈ (⟨[1], [1], [0], [0], [], [], wf⟩ : DotT A K B).rhsNonContracting from List.mem_singleton.mpr rfl)]
  rfl

/-- The right operand's column is the contracted index. -/
theorem rhs1 (i : (⟨2, ![A, B]⟩ : Shape).Idx) (q : (⟨[1], [1], [0], [0], [], [], wf⟩ : DotT A K B).contr.Idx) :
    ((⟨[1], [1], [0], [0], [], [], wf⟩ : DotT A K B).rhsIdx i q 1).val = (q ⟨0, Nat.one_pos⟩).val :=
  (⟨[1], [1], [0], [0], [], [], wf⟩ : DotT A K B).rhsIdx_val_of_single rfl i q

end Coordinates

/-- The sum over the contracted index, re-indexed by `Fin K`, with the operand entries named by their coordinates. -/
theorem sum_contr (d : DotT A K B) (hd : IsTrans d) (l : (⟨2, ![A, K]⟩ : Shape).Idx → EReal)
    (r : (⟨2, ![B, K]⟩ : Shape).Idx → EReal) (i : (⟨2, ![A, B]⟩ : Shape).Idx) :
    ∑ q : d.contr.Idx, l (d.lhsIdx i q) * r (d.rhsIdx i q) = ∑ k : Fin K, l (ix2 (i 0) k) * r (ix2 (i 1) k) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [1], [0], [0], [], [], wf⟩ : DotT A K B) K rfl rfl).symm]
  refine Finset.sum_congr rfl fun k _ => ?_
  have hk := contrEquiv1_symm_val (⟨[1], [1], [0], [0], [], [], wf⟩ : DotT A K B) K rfl rfl k
  have el : (⟨[1], [1], [0], [0], [], [], wf⟩ : DotT A K B).lhsIdx i
      ((contrEquiv1 (⟨[1], [1], [0], [0], [], [], wf⟩ : DotT A K B) K rfl rfl).symm k) = ix2 (i 0) k :=
    funext fun a => Fin.ext (by
      match a with
      | ⟨0, _⟩ => exact lhs0 wf _ _
      | ⟨1, _⟩ => exact (lhs1 wf _ _).trans hk)
  have er : (⟨[1], [1], [0], [0], [], [], wf⟩ : DotT A K B).rhsIdx i
      ((contrEquiv1 (⟨[1], [1], [0], [0], [], [], wf⟩ : DotT A K B) K rfl rfl).symm k) = ix2 (i 1) k :=
    funext fun a => Fin.ext (by
      match a with
      | ⟨0, _⟩ => exact rhs0 wf _ _
      | ⟨1, _⟩ => exact (rhs1 wf _ _).trans hk)
  exact congrArg₂ (· * ·) (congrArg l el) (congrArg r er)

/-- The host's product at an entry. -/
theorem dotGeneral_trans {φ₁ φ₂ : FTy} (d : DotT A K B) (hd : IsTrans d) (prec : Option ContractPrecision) (sched : HostSchedule)
    (l : FVec Ideal (⟨2, ![A, K]⟩ : Shape) φ₁) (r : FVec Ideal (⟨2, ![B, K]⟩ : Shape) φ₂) (i : (⟨2, ![A, B]⟩ : Shape).Idx) :
    FloatOps.dotGeneral d prec sched l r i = ∑ k : Fin K, l (ix2 (i 0) k) * r (ix2 (i 1) k) := by
  rw [Ideal.dotGeneral_apply]
  exact sum_contr d hd l r i

/-- The kernel's product into a zero accumulator at an entry. -/
theorem matmul_zero_trans {φ₁ φ₂ : FTy} (d : DotT A K B) (hd : IsTrans d) (prec : Option ContractPrecision)
    (l : FVec Ideal (⟨2, ![A, K]⟩ : Shape) φ₁) (r : FVec Ideal (⟨2, ![B, K]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 (i 1) k) := by
  rw [Ideal.matmul_constant_zero_apply]
  exact sum_contr d hd l r i

end Cert.TransDot
-- ==== Proof.Spec.lean ====
/-
  The function both programs compute.

  With x of shape [1, 768, 128], two 128 x 128 weights and two biases of length 128:

    left (i, e)   = (sum over d of x (0, i, d) * W_in (e, d)) + b_in (e)                        i < 768, e < 128
    out (i, j, e) = (sum over d of (left (i, d) * left (j, d)) * W_out (e, d)) + b_out (e)     i, j < 768, e < 128

  over the extended reals. `proj` is the second line over ANY 768 x 128 array in place of `left`: the kernel's region
  is handed `left` as an array and computes `proj` of it.
-/
import Idealize.ShloMosaic.Lib.ValueIdx
import Idealize.ShloMosaic.PureOps.Ideal

noncomputable section
open scoped BigOperators

namespace Cert.OuterProj

open Idealize.ShloMosaic Idealize.ShloMosaic.ValueIdx

/-- The input projection: row `i` of `x` against row `e` of `W_in`, plus the bias. -/
def left (x : (⟨3, ![1, 768, 128]⟩ : Shape).Idx → EReal) (Win : (⟨2, ![128, 128]⟩ : Shape).Idx → EReal)
    (bin : (⟨1, ![128]⟩ : Shape).Idx → EReal) (i : Fin 768) (e : Fin 128) : EReal :=
  (∑ d : Fin 128, x (ix3 (0 : Fin 1) i d) * Win (ix2 e d)) + bin (ix1 e)

/-- The output projection of the pairwise products of the rows of a 768 x 128 array `L`. -/
def proj (L : (⟨2, ![768, 128]⟩ : Shape).Idx → EReal) (Wout : (⟨2, ![128, 128]⟩ : Shape).Idx → EReal)
    (bout : (⟨1, ![128]⟩ : Shape).Idx → EReal) (i j : Fin 768) (e : Fin 128) : EReal :=
  (∑ d : Fin 128, (L (ix2 i d) * L (ix2 j d)) * Wout (ix2 e d)) + bout (ix1 e)

/-- The whole program: `proj` of `left`, with the leading unit axis of the result. -/
def out (x : (⟨3, ![1, 768, 128]⟩ : Shape).Idx → EReal) (Win : (⟨2, ![128, 128]⟩ : Shape).Idx → EReal)
    (bin : (⟨1, ![128]⟩ : Shape).Idx → EReal) (Wout : (⟨2, ![128, 128]⟩ : Shape).Idx → EReal)
    (bout : (⟨1, ![128]⟩ : Shape).Idx → EReal) : (⟨4, ![1, 768, 768, 128]⟩ : Shape).Idx → EReal :=
  fun idx => proj (fun y => left x Win bin ⟨(y 0).val, (y 0).isLt⟩ ⟨(y 1).val, (y 1).isLt⟩) Wout bout
    ⟨(idx 1).val, (idx 1).isLt⟩ ⟨(idx 2).val, (idx 2).isLt⟩ ⟨(idx 3).val, (idx 3).isLt⟩

end Cert.OuterProj

end
-- ==== Proof.KernelIdealPayload.lean ====
/-
  The body's value at an entry.

  At the extended reals a change of float format is the identity, the matrix unit into a zero accumulator is a plain sum
  of products, and the re-layouts move no value. So the value the body stores, at the entry (p, q, e) of the result
  block, is

    (sum over d of (x0 (p, d) * x1 (q, d)) * x2 (e, d)) + x3 (e)

  of its four loaded blocks: row p of the first against row q of the second, weighted by row e of the third, plus the bias.
-/
import proofs.«179477_j46505905881344_2_alg».proof.Proof.Gen.KernelIdeal.Skeleton
import proofs.«179477_j46505905881344_2_alg».proof.Proof.BodyLayout
import proofs.«179477_j46505905881344_2_alg».proof.Proof.LibTransDot
import proofs.«179477_j46505905881344_2_alg».proof.Proof.Spec
import Idealize.ShloMosaic.Lib.ValueIdx
import Idealize.ShloMosaic.Lib.Pipeline.Value
import Idealize.ShloMosaic.PureOps.Ideal.Laws

noncomputable section
open scoped BigOperators

namespace Cert.KernelIdeal.Payload

open Cert.KernelIdeal Cert.KernelIdeal.Gen Cert.OuterProj
open Idealize.ShloMosaic Idealize.ShloMosaic.ValueIdx

/-- The body's value at the entry (p, q, e), as the sum of products. -/
theorem pay_apply (x0 x1 x2 : FVec Ideal S128x128 .f32) (x3 : FVec Ideal S128 .f32) (p q e : Fin 128) :
    k0_pay1 (F := Ideal) x0 x1 x2 x3 (ix3 p q e)
      = ((∑ d : Fin 128, (x0 (ix2 p d) * x1 (ix2 q d)) * x2 (ix2 e d)) + x3 (ix1 e) : EReal) := by
  unfold k0_pay1
  refine (addf_apply _ _ _).trans ?_
  refine congrArg₂ (· + ·) ?_ ?_
  · refine (Layout.cast_unflat _ _ p q e).trans ?_
    refine (Cert.TransDot.matmul_zero_trans _ ⟨rfl, rfl, rfl, rfl, rfl, rfl⟩ none _ _ _).trans ?_
    refine Finset.sum_congr rfl fun d _ => ?_
    refine congrArg₂ (· * ·) ?_ rfl
    refine (Layout.cast_flat _ _ p q d).trans ?_
    refine (mulf_apply _ _ _).trans ?_
    refine congrArg₂ (· * ·) ?_ ?_
    · refine (Layout.bcast_col _ _ p q d).trans ?_
      refine (Layout.cast_col _ _ p d).trans ?_
      exact congrFun (shapeCast_self x0 _) _
    · refine (Layout.bcast_row _ _ p q d).trans ?_
      refine (Layout.cast_row _ _ q d).trans ?_
      exact congrFun (shapeCast_self x1 _) _
  · refine (Layout.bcast_vec _ _ p q e).trans ?_
    exact Layout.cast_vec _ _ e

/-- The same when the four blocks are blocks of arrays: rows 128 bi .. of `L` and rows 128 bj .. of `L`, the whole
    weight and the whole bias. The value at (p, q, e) is `proj L W b` at rows 128 bi + p and 128 bj + q. -/
theorem pay_blocks (L : (⟨2, ![768, 128]⟩ : Shape).Idx → EReal) (W : (⟨2, ![128, 128]⟩ : Shape).Idx → EReal)
    (b : (⟨1, ![128]⟩ : Shape).Idx → EReal)
    (x0 x1 x2 : FVec Ideal S128x128 .f32) (x3 : FVec Ideal S128 .f32) (i j : Fin 768) (p q e : Fin 128)
    (h0 : ∀ d : Fin 128, x0 (ix2 p d) = L (ix2 i d)) (h1 : ∀ d : Fin 128, x1 (ix2 q d) = L (ix2 j d))
    (h2 : ∀ d : Fin 128, x2 (ix2 e d) = W (ix2 e d)) (h3 : x3 (ix1 e) = b (ix1 e)) :
    k0_pay1 (F := Ideal) x0 x1 x2 x3 (ix3 p q e) = proj L W b i j e := by
  rw [pay_apply]
  unfold proj
  rw [h3]
  exact congrArg₂ (· + ·) (Finset.sum_congr rfl fun d _ => by rw [h0 d, h1 d, h2 d]) rfl

end Cert.KernelIdeal.Payload

end
-- ==== Proof.KernelIdealBlocks.lean ====
/-
  From the 36 blocks to the result array.

  At the point (bi, bj) of the 6 x 6 grid window 0 holds rows 128 bi .. of `left`, window 1 rows 128 bj .. of
  `left`, windows 2 and 3 the whole weight and bias, and the body's value goes to the block (bi, bj, 0) of the result.
  By the body's value at an entry, that block is `proj left W b` restricted to rows 128 bi .. 128 bi + 127 and
  128 bj .. 128 bj + 127: every block is a restriction of ONE function of the whole arrays. The 36 blocks tile the
  768 x 768 x 128 result (the block of row i and column j is the point (i / 128, j / 128)), so after the last
  write-back the result array IS that function.
-/
import proofs.«179477_j46505905881344_2_alg».proof.Proof.KernelIdealLaunch
import proofs.«179477_j46505905881344_2_alg».proof.Proof.KernelIdealPayload
import Idealize.ShloMosaic.Lib.Pipeline.Value

set_option maxRecDepth 16384

noncomputable section
open scoped BigOperators

namespace Cert.KernelIdeal.Region

open Cert.KernelIdeal Cert.KernelIdeal.Gen Cert.OuterProj
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array as one function of the arrays the region reads: `proj` at the index's three coordinates. -/
def resultArr (L : S768x128.Idx → EReal) (W : S128x128.Idx → EReal) (b : S128.Idx → EReal) : S768x768x128.Idx → EReal :=
  fun i => proj L W b ⟨(i 0).val, (i 0).isLt⟩ ⟨(i 1).val, (i 1).isLt⟩ ⟨(i 2).val, (i 2).isLt⟩

/-- One block: if the four loaded blocks are rows 128 bi .. and 128 bj .. of `L`, all of `W` and all of `b`, the body's
    value is `resultArr L W b` on the block (bi, bj, 0). -/
theorem block_eq (L : S768x128.Idx → EReal) (W : S128x128.Idx → EReal) (b : S128.Idx → EReal)
    (x0 x1 x2 : FVec Ideal S128x128 .f32) (x3 : FVec Ideal S128 .f32) (bi bj : Fin 6)
    (h0 : ∀ p d : Fin 128, x0 (ix2 p d) = L (ix2 (⟨bi.val * 128 + p.val, by have := bi.isLt; have := p.isLt; omega⟩ : Fin 768) d))
    (h1 : ∀ q d : Fin 128, x1 (ix2 q d) = L (ix2 (⟨bj.val * 128 + q.val, by have := bj.isLt; have := q.isLt; omega⟩ : Fin 768) d))
    (h2 : ∀ e d : Fin 128, x2 (ix2 e d) = W (ix2 e d)) (h3 : ∀ e : Fin 128, x3 (ix1 e) = b (ix1 e)) :
    k0_pay1 (F := Ideal) x0 x1 x2 x3 = fun y : S128x128x128.Idx =>
      resultArr L W b (ix3 (⟨bi.val * 128 + (y 0).val, by have := bi.isLt; have : (y 0).val < 128 := (y 0).isLt; omega⟩ : Fin 768)
        (⟨bj.val * 128 + (y 1).val, by have := bj.isLt; have : (y 1).val < 128 := (y 1).isLt; omega⟩ : Fin 768) (⟨(y 2).val, (y 2).isLt⟩ : Fin 128)) := by
  funext y
  refine (congrArg (k0_pay1 (F := Ideal) x0 x1 x2 x3) (eq_ix3 y)).trans ?_
  exact Payload.pay_blocks L W b x0 x1 x2 x3 _ _ (y 0) (y 1) (y 2) (h0 _) (h1 _) (h2 _) (h3 _)

/-- The printed index maps, decided over the 36 points: window 0 follows the result's first block index, window 1 its
    second, the weight and the bias stay put, and the result's block indices are below 6, 6 and 1. -/
theorem idx_facts : ∀ t : Fin cfg0.N,
    win0_0.index t (0 : Fin 2) = win0_4.index t (0 : Fin 3) ∧ win0_0.index t (1 : Fin 2) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 1) = 0
    ∧ win0_4.index t (2 : Fin 3) = 0 ∧ win0_4.index t (0 : Fin 3) ≤ 5 ∧ win0_4.index t (1 : Fin 3) ≤ 5 :=
  (by decide +kernel : ∀ t : Fin grid0.N, _)

/-- Every block (q0, q1, 0) of the result is some point's. -/
theorem idx_onto : ∀ (q0 q1 : Fin 6), ∃ t : Fin cfg0.N, win0_4.index t = ![q0.val, q1.val, 0] :=
  (by decide +kernel : ∀ (q0 q1 : Fin 6), ∃ t : Fin grid0.N, win0_4.index t = ![q0.val, q1.val, 0])

/-- What point `t` writes back is block `t` of `resultArr` of the arrays as the region finds them. -/
theorem flushed_eq (c : Dev nD) (t : Fin cfg0.N) :
    (dats m 0 c).flushed 4 t
      = ((cfg0.win 4).blk t).view.read (Elt Ideal) (resultArr (V m c main_v4) (V m c main_arg3) (V m c main_arg4)) := by
  show (cfg0.win 4).cut (grid0.coords t) ((dats m 0 c).after 4 t) = _
  rw [after4]
  unfold outBlock
  rw [View.canon_unit_zero hz3]
  simp only [View.ld_unit_zero (S := S128x128) hz2, View.ld_unit_zero (S := S128) hz1]
  obtain ⟨e0, e1, e2, e3, e4, e5, e6, e7, e8, e9⟩ := idx_facts t
  show k0_pay1 (F := Ideal) (iblk m c 0 t) (iblk m c 1 t) (iblk m c 2 t) (iblk m c 3 t) = _
  refine (block_eq (V m c main_v4) (V m c main_arg3) (V m c main_arg4) (iblk m c 0 t) (iblk m c 1 t) (iblk m c 2 t) (iblk m c 3 t)
    ⟨win0_4.index t (0 : Fin 3), by omega⟩ ⟨win0_4.index t (1 : Fin 3), by omega⟩ ?_ ?_ ?_ ?_).trans ?_
  · intro p d
    show V m c main_v4 (((cfg0.win 0).blk t).view.emb (ix2 p d)) = V m c main_v4 (ix2 _ d)
    refine congrArg (V m c main_v4) (funext fun a => Fin.ext ?_)
    match a with
    | ⟨0, _⟩ => show win0_0.index t (0 : Fin 2) * 128 + 1 * p.val = win0_4.index t (0 : Fin 3) * 128 + p.val; omega
    | ⟨1, _⟩ => show win0_0.index t (1 : Fin 2) * 128 + 1 * d.val = d.val; omega
  · intro q d
    show V m c main_v4 (((cfg0.win 1).blk t).view.emb (ix2 q d)) = V m c main_v4 (ix2 _ d)
    refine congrArg (V m c main_v4) (funext fun a => Fin.ext ?_)
    match a with
    | ⟨0, _⟩ => show win0_1.index t (0 : Fin 2) * 128 + 1 * q.val = win0_4.index t (1 : Fin 3) * 128 + q.val; omega
    | ⟨1, _⟩ => show win0_1.index t (1 : Fin 2) * 128 + 1 * d.val = d.val; omega
  · intro e d
    show V m c main_arg3 (((cfg0.win 2).blk t).view.emb (ix2 e d)) = V m c main_arg3 (ix2 e d)
    refine congrArg (V m c main_arg3) (funext fun a => Fin.ext ?_)
    match a with
    | ⟨0, _⟩ => show win0_2.index t (0 : Fin 2) * 128 + 1 * e.val = e.val; omega
    | ⟨1, _⟩ => show win0_2.index t (1 : Fin 2) * 128 + 1 * d.val = d.val; omega
  · intro e
    show V m c main_arg4 (((cfg0.win 3).blk t).view.emb (ix1 e)) = V m c main_arg4 (ix1 e)
    refine congrArg (V m c main_arg4) (funext fun a => Fin.ext ?_)
    match a with
    | ⟨0, _⟩ => show win0_3.index t (0 : Fin 1) * 128 + 1 * e.val = e.val; omega
  · funext y
    show resultArr (V m c main_v4) (V m c main_arg3) (V m c main_arg4) _
      = resultArr (V m c main_v4) (V m c main_arg3) (V m c main_arg4) (((cfg0.win 4).blk t).view.emb y)
    refine congrArg (resultArr (V m c main_v4) (V m c main_arg3) (V m c main_arg4)) (funext fun a => Fin.ext ?_)
    match a with
    | ⟨0, _⟩ => show win0_4.index t (0 : Fin 3) * 128 + (y 0).val = win0_4.index t (0 : Fin 3) * 128 + 1 * (y 0).val; omega
    | ⟨1, _⟩ => show win0_4.index t (1 : Fin 3) * 128 + (y 1).val = win0_4.index t (1 : Fin 3) * 128 + 1 * (y 1).val; omega
    | ⟨2, _⟩ => show (y 2).val = win0_4.index t (2 : Fin 3) * 128 + 1 * (y 2).val; omega

/-- An index of the result array is in point `t`'s block iff each coordinate is in the block's range on its axis. -/
theorem mem_blk (t : Fin cfg0.N) (i : S768x768x128.Idx) :
    i ∈ ((cfg0.win 4).blk t).view.set ↔ ∀ a : Fin 3, win0_4.index t a * S128x128x128.size a ≤ (i a).val
      ∧ (i a).val < win0_4.index t a * S128x128x128.size a + S128x128x128.size a := by
  show i ∈ ((View.whole main_v5).slice (win0_4.rect t)).set ↔ _
  rw [View.set_slice_whole, Rect.mem_set_unit]
  exact Iff.rfl

/-- Every index of the result array is in some point's block: row i and column j lie in the block (i / 128, j / 128, 0). -/
theorem covered (i : S768x768x128.Idx) : ∃ t : Fin cfg0.N, (cfg0.win 4).flush t = true ∧ i ∈ ((cfg0.win 4).blk t).view.set := by
  have hi0 : (i 0).val < 768 := (i 0).isLt
  have hi1 : (i 1).val < 768 := (i 1).isLt
  have hi2 : (i 2).val < 128 := (i 2).isLt
  obtain ⟨t, ht⟩ := idx_onto ⟨(i 0).val / 128, by omega⟩ ⟨(i 1).val / 128, by omega⟩
  have q0 : win0_4.index t (0 : Fin 3) = (i 0).val / 128 := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 128 ≤ (i 0).val ∧ (i 0).val < win0_4.index t (0 : Fin 3) * 128 + 128; omega
  | ⟨1, _⟩ => show win0_4.index t (1 : Fin 3) * 128 ≤ (i 1).val ∧ (i 1).val < win0_4.index t (1 : Fin 3) * 128 + 128; omega
  | ⟨2, _⟩ => show win0_4.index t (2 : Fin 3) * 128 ≤ (i 2).val ∧ (i 2).val < win0_4.index t (2 : Fin 3) * 128 + 128; omega

/-- The result array after the region: `resultArr` of the arrays as the region finds them. -/
theorem final (c : Dev nD) :
    (dats m 0 c).arrAt 4 cfg0.N = resultArr (V m c main_v4) (V m c main_arg3) (V m c main_arg4) :=
  (dats m 0 c).arrAt_eq_of_cover 4 _ (fun t _ => flushed_eq m c t) covered

end Cert.KernelIdeal.Region

end
-- ==== Proof.KernelIdealHost.lean ====
/-
  The host operations around the region, read at an entry.

  Before the region the host computes `left`: x with its leading unit axis dropped, contracted with W_in over both
  second axes (x W_in^T), plus b_in repeated down the rows. At the entry (i, e) that is
  (sum over d of x (0, i, d) * W_in (e, d)) + b_in (e). After the region the host only adds a leading unit axis to the
  region's result.
-/
import proofs.«179477_j46505905881344_2_alg».proof.Proof.KernelIdealLaunch
import proofs.«179477_j46505905881344_2_alg».proof.Proof.Spec
import proofs.«179477_j46505905881344_2_alg».proof.Proof.LibTransDot
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section
open scoped BigOperators

namespace Cert.KernelIdeal.Region

open Cert.KernelIdeal Cert.KernelIdeal.Gen Cert.OuterProj
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- `left` as the region finds it, as the host operations' term of the arguments. -/
theorem left_term (c : Dev nD) :
    V m c main_v4 = addf (Host.dotGeneral (F := Ideal) (φ₁ := .f32) (φ₂ := .f32) dot_S768x128_S128x128_S768x128_1_1_0_0_n_n none
        (shapeCast S768x128 (m ((c : Thread nD τ).loc main_arg0)) shapeCasts_S1x768x128_S768x128) (m ((c : Thread nD τ).loc main_arg1)))
      (broadcastInDim S768x128 ![0, 1] bcast_S1x128_S768x128_0_1 (broadcastInDim S1x128 ![1] bcast_S128_S1x128_1 (m ((c : Thread nD τ).loc main_arg2)))) := by
  show StableHlo.after hostOps0 (fun b => m (c, b)) (Proc.devRef .tc main_v4) = _
  after_results
  rfl

/-- `left` at the entry (i, e). -/
theorem left_entry (c : Dev nD) (i : Fin 768) (e : Fin 128) :
    V m c main_v4 (ix2 i e)
      = left (m ((c : Thread nD τ).loc main_arg0)) (m ((c : Thread nD τ).loc main_arg1)) (m ((c : Thread nD τ).loc main_arg2)) i e := by
  rw [left_term]
  refine (addf_apply _ _ _).trans ?_
  unfold left
  refine congrArg₂ (· + ·) ?_ ?_
  · refine (Cert.TransDot.dotGeneral_trans _ ⟨rfl, rfl, rfl, rfl, rfl, rfl⟩ none _ _ _ _).trans ?_
    refine Finset.sum_congr rfl fun d _ => ?_
    refine congrArg₂ (· * ·) ?_ rfl
    exact shapeCast_1ab_ab_apply _ _ i d
  · refine (broadcastInDim_apply _ bcast_S1x128_S768x128_0_1 _ (ix2 i e) (ix2 (0 : Fin 1) e) (fun a => match a with
      | ⟨0, _⟩ => by show 0 = if (1 : Nat) = 1 then 0 else i.val; rw [if_pos rfl]
      | ⟨1, _⟩ => by show e.val = if (128 : Nat) = 1 then 0 else e.val; rw [if_neg (by decide)])).trans ?_
    exact broadcastInDim_apply _ bcast_S128_S1x128_1 _ (ix2 (0 : Fin 1) e) (ix1 e) (fun a => match a with
      | ⟨0, _⟩ => by show e.val = if (128 : Nat) = 1 then 0 else e.val; rw [if_neg (by decide)])

/-- The program's result is the region's result array with a leading unit axis. -/
theorem result_term (c : Dev nD) :
    Vfin m c (Proc.devRef .tc main_v6)
      = shapeCast S1x768x768x128 ((dats m 0 c).arrAt 4 cfg0.N) shapeCasts_S768x768x128_S1x768x768x128 := by
  unfold Vfin
  after_results
  rw [Vexit_v5]
  rfl

end Cert.KernelIdeal.Region

end
-- ==== Proof.KernelIdealResult.lean ====
/-
  The idealized kernel's result as one function of the arguments.

  The region's result array is `proj` of the array `left` the host computed, the weight and the bias; `left` at an
  entry is the input projection of the arguments; the reshape after the region only adds a leading unit axis. So the
  program's result is `out` of the five argument arrays, entry by entry.
-/
import proofs.«179477_j46505905881344_2_alg».proof.Proof.KernelIdealBlocks
import proofs.«179477_j46505905881344_2_alg».proof.Proof.KernelIdealHost
import Idealize.ShloMosaic.Lib.ValueLayout

set_option maxRecDepth 16384

noncomputable section
open scoped BigOperators

namespace Cert.KernelIdeal.Region

open Cert.KernelIdeal Cert.KernelIdeal.Gen Cert.OuterProj
open Idealize.ShloMosaic Idealize.ShloMosaic.TcCoe Idealize.ShloMosaic.ValueIdx
open Idealize.SL Idealize.SL.Sem

variable (m : (ℓ : Loc nD τ sig) → Buf (Elt Ideal) ℓ)

/-- The program's result at the entry (0, i, j, e): `proj` of the arrays the region found. -/
theorem result_entry (c : Dev nD) (i j : Fin 768) (e : Fin 128) :
    Vfin m c (Proc.devRef .tc main_v6) (ix4 (0 : Fin 1) i j e) = proj (V m c main_v4) (V m c main_arg3) (V m c main_arg4) i j e := by
  rw [result_term]
  refine (shapeCast_abc_1abc_apply _ _ (0 : Fin 1) i j e).trans ?_
  rw [final]
  rfl

/-- The array `left` the region found, as a function of the arguments. -/
theorem left_fun (c : Dev nD) :
    V m c main_v4 = fun y => left (m ((c : Thread nD τ).loc main_arg0)) (m ((c : Thread nD τ).loc main_arg1)) (m ((c : Thread nD τ).loc main_arg2))
      ⟨(y 0).val, (y 0).isLt⟩ ⟨(y 1).val, (y 1).isLt⟩ := by
  funext y
  refine (congrArg (V m c main_v4) (eq_ix2 y)).trans ?_
  exact left_entry m c (y 0) (y 1)

/-- The program's result is `out` of the five argument arrays. -/
theorem kernel_result (c : Dev nD) :
    Vfin m c (Proc.devRef .tc main_v6)
      = out (m ((c : Thread nD τ).loc main_arg0)) (m ((c : Thread nD τ).loc main_arg1)) (m ((c : Thread nD τ).loc main_arg2))
          (m ((c : Thread nD τ).loc main_arg3)) (m ((c : Thread nD τ).loc main_arg4)) := by
  funext idx
  have h0 : (idx 0).val = 0 := by have : (idx 0).val < 1 := (idx 0).isLt; omega
  have hidx : idx = ix4 (0 : Fin 1) (idx 1) (idx 2) (idx 3) := by
    funext a
    match a with
    | ⟨0, _⟩ => exact Fin.ext h0
    | ⟨1, _⟩ => rfl
    | ⟨2, _⟩ => rfl
    | ⟨3, _⟩ => rfl
  refine (congrArg (Vfin m c (Proc.devRef .tc main_v6)) hidx).trans ?_
  refine (result_entry m c (idx 1) (idx 2) (idx 3)).trans ?_
  rw [left_fun, V_main_arg3, V_main_arg4]
  rfl

end Cert.KernelIdeal.Region

end
-- ==== Proof.RefValue.lean ====
/-
  The reference is the specification.

  The reference computes `left` with the leading unit axis kept, repeats it along a new third axis and along a new
  second axis, multiplies the two, contracts the last axis with W_out over both last axes, and adds b_out repeated
  over the three leading axes. Read at the entry (0, i, j, e), one operation at a time:
  (sum over d of (left (i, d) * left (j, d)) * W_out (e, d)) + b_out (e).
-/
import proofs.«179477_j46505905881344_2_alg».proof.Proof.Gen.ReferenceIdeal.Run
import proofs.«179477_j46505905881344_2_alg».proof.Proof.Gen.ReferenceIdeal.Read
import proofs.«179477_j46505905881344_2_alg».proof.Proof.Spec
import Idealize.ShloMosaic.Lib.ValueIdx

noncomputable section
open scoped BigOperators

namespace Cert.ReferenceIdeal.RefValue

open Cert.ReferenceIdeal Cert.ReferenceIdeal.Gen Cert.ReferenceIdeal.Read Cert.OuterProj
open Idealize.ShloMosaic Idealize.ShloMosaic.ValueIdx

variable (x0 : (⟨S1x768x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal))

/-- The reference's `left` (its stage %3) at the entry (0, i, e). -/
theorem ref_left (i : Fin 768) (e : Fin 128) :
    val_main_v3 (F := Ideal) x0 x1 x2 (ix3 (0 : Fin 1) i e) = left x0 x1 x2 i e := by
  rw [val_main_v3_apply, val_main_v0_apply, val_main_v2_apply, val_main_v1_apply]
  unfold left
  refine congrArg₂ (· + ·) (Finset.sum_congr rfl fun d _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The reference's result (its stage %12) at the entry (0, i, j, e). -/
theorem ref_entry (i j : Fin 768) (e : Fin 128) :
    val_main_v12 (F := Ideal) x0 x1 x2 x3 x4 (ix4 (0 : Fin 1) i j e)
      = proj (fun y => left x0 x1 x2 ⟨(y 0).val, (y 0).isLt⟩ ⟨(y 1).val, (y 1).isLt⟩) x3 x4 i j e := by
  rw [val_main_v12_apply, val_main_v9_apply, val_main_v11_apply, val_main_v10_apply]
  unfold proj
  refine congrArg₂ (· + ·) (Finset.sum_congr rfl fun d _ => congrArg₂ (· * ·) ?_ (congrArg x3 ?_)) (congrArg x4 ?_)
  · rw [val_main_v8_apply, val_main_v6_apply, val_main_v4_apply, val_main_v7_apply, val_main_v5_apply]
    refine congrArg₂ (· * ·) ?_ ?_
    · refine (congrArg (val_main_v3 (F := Ideal) x0 x1 x2) (?_ : _ = ix3 (0 : Fin 1) i d)).trans (ref_left x0 x1 x2 i d)
      exact funext fun a => Fin.ext (by match a with | ⟨0, _⟩ => rfl | ⟨1, _⟩ => rfl | ⟨2, _⟩ => rfl)
    · refine (congrArg (val_main_v3 (F := Ideal) x0 x1 x2) (?_ : _ = ix3 (0 : Fin 1) j d)).trans (ref_left x0 x1 x2 j d)
      exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The reference's result is `out` of the arguments. -/
theorem ref_out : val_main_v12 (F := Ideal) x0 x1 x2 x3 x4 = out x0 x1 x2 x3 x4 := by
  funext idx
  have h0 : (idx 0).val = 0 := by have : (idx 0).val < 1 := (idx 0).isLt; omega
  have hidx : idx = ix4 (0 : Fin 1) (idx 1) (idx 2) (idx 3) := by
    funext a
    match a with
    | ⟨0, _⟩ => exact Fin.ext h0
    | ⟨1, _⟩ => rfl
    | ⟨2, _⟩ => rfl
    | ⟨3, _⟩ => rfl
  refine (congrArg (val_main_v12 (F := Ideal) x0 x1 x2 x3 x4) hidx).trans ?_
  exact ref_entry x0 x1 x2 x3 x4 (idx 1) (idx 2) (idx 3)

end Cert.ReferenceIdeal.RefValue

end
-- ==== Proof.lean ====
/-
  The kernel tiles the 768 x 768 x 128 output of

    out (i, j, e) = (sum over d of (left (i, d) * left (j, d)) * W_out (e, d)) + b_out (e),
    left (i, e)   = (sum over d of x (0, i, d) * W_in (e, d)) + b_in (e),

  into 36 blocks of 128 x 128 x 128, one per point of a 6 x 6 grid; the reference computes the same two lines with whole-array
  operations. Over the extended reals the two agree entry by entry with no appeal to finiteness: a change of float
  format is the identity, the matrix unit into a zero accumulator and the host's contraction are the same sum, and
  both sides multiply and add in the same order.

  The three frames: each kernel program runs to its end without a fault and writes no argument array (the region reads
  `left` through two windows at once, each holding half of it); the reference is straight-line host code. The ideal
  pass rewrote nothing, so the kernel's idealization is its own text.
-/
import proofs.«179477_j46505905881344_2_alg».proof.Defs
import proofs.«179477_j46505905881344_2_alg».proof.Proof.Gen.Kernel
import proofs.«179477_j46505905881344_2_alg».proof.Proof.Gen.KernelIdeal
import proofs.«179477_j46505905881344_2_alg».proof.Proof.Gen.ReferenceIdeal
import proofs.«179477_j46505905881344_2_alg».proof.Proof.Gen.Pre_finite_inputs
import proofs.«179477_j46505905881344_2_alg».proof.Proof.KernelLaunch
import proofs.«179477_j46505905881344_2_alg».proof.Proof.KernelIdealResult
import proofs.«179477_j46505905881344_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ =>
  (θ_run (Cert.Kernel.defs (F := Bits)) _ _).mono (fun _ h c => (h c).2) (Cert.Kernel.Region.run_main (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Region.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the result at `out` of the arguments. -/
theorem algebraic : Cert.algebraic_KernelIdeal_ReferenceIdeal := by
  intro m ρ m' ρ' _ hagree
  refine ⟨fun c => Cert.OuterProj.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (Cert.KernelIdeal.Region.kernel_result m c), (h c).2⟩)
      (Cert.KernelIdeal.Region.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.ref_out, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
